-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S64x2048 : Shape := ⟨2, ![64, 2048]⟩
abbrev S64x256 : Shape := ⟨2, ![64, 256]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S64x2048x256 .f32) (main_arg1 : IVec S64x2048 32) (main_arg2 : FVec F S64x256 .f32) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  main_v8
-- ==== Kernel.lean ====
abbrev S64x2048x256 : Shape := ⟨3, ![64, 2048, 256]⟩
abbrev S64x2048 : Shape := ⟨2, ![64, 2048]⟩
abbrev S64x256 : Shape := ⟨2, ![64, 256]⟩
abbrev S64x2048x1 : Shape := ⟨3, ![64, 2048, 1]⟩
abbrev S64x1 : Shape := ⟨2, ![64, 1]⟩
abbrev S8x256x256 : Shape := ⟨3, ![8, 256, 256]⟩
abbrev S8x256x1 : Shape := ⟨3, ![8, 256, 1]⟩
abbrev S8x1 : Shape := ⟨2, ![8, 1]⟩
abbrev S2048x256 : Shape := ⟨2, ![2048, 256]⟩
abbrev S2048 : Shape := ⟨1, ![2048]⟩
abbrev S2048x1 : Shape := ⟨2, ![2048, 1]⟩
abbrev S64 : Shape := ⟨1, ![64]⟩
abbrev S2048x64 : Shape := ⟨2, ![2048, 64]⟩
abbrev S8x256 : Shape := ⟨2, ![8, 256]⟩
abbrev S8 : Shape := ⟨1, ![8]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S64x2048x256, .f32⟩
  | .hbm, ⟨1, _⟩ => ⟨S64x2048, .i32⟩
  | .hbm, ⟨2, _⟩ => ⟨S64x256, .f32⟩
  | .hbm, ⟨3, _⟩ => ⟨S64x2048x1, .i32⟩
  | .hbm, ⟨4, _⟩ => ⟨S64x1, .f32⟩
  | .hbm, ⟨5, _⟩ => ⟨S_, .f32⟩
  | .hbm, ⟨6, _⟩ => ⟨S_, .f32⟩
  | .local _ .vmem, ⟨0, _⟩ => ⟨S8x256x256, .f32⟩
  | .local _ .vmem, ⟨1, _⟩ => ⟨S8x256x256, .f32⟩
  | .local _ .vmem, ⟨2, _⟩ => ⟨S8x256x1, .i32⟩
  | .local _ .vmem, ⟨3, _⟩ => ⟨S8x256x1, .i32⟩
  | .local _ .vmem, ⟨4, _⟩ => ⟨S64x256, .f32⟩
  | .local _ .vmem, ⟨5, _⟩ => ⟨S8x1, .f32⟩
  | .local _ .vmem, ⟨6, _⟩ => ⟨S8x1, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x2048_S64x2048x1 : S64x2048.ShapeCasts S64x2048x1
  inb_S8x1_S8x1_0_0 : ∀ a, (![0, 0] : Fin 2 → Nat) a + S8x1.size a ≤ S8x1.size a
  h_S8x1 : 0 < S8x1.numel
  inb_S8x256x256_S8x256x256_0_0_0 : ∀ a, (![0, 0, 0] : Fin 3 → Nat) a + S8x256x256.size a ≤ S8x256x256.size a
  h_S8x256x256 : 0 < S8x256x256.numel
  shapeCasts_S8x256x256_S2048x256 : S8x256x256.ShapeCasts S2048x256
  reduces_S2048x256_S2048 : S2048x256.Reduces [1] S2048
  shapeCasts_S2048_S2048x1 : S2048.ShapeCasts S2048x1
  broadcasts_S2048x1_S2048x256 : S2048x1.Broadcasts S2048x256
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  reduces_S64x256_S64 : S64x256.Reduces [1] S64
  shapeCasts_S64_S64x1 : S64.ShapeCasts S64x1
  broadcasts_S64x1_S64x256 : S64x1.Broadcasts S64x256
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  shapeCasts_S8x256x1_S2048x1 : S8x256x1.ShapeCasts S2048x1
  iota_S2048x64_d1_w32 : S2048x64.Iotas .tc 32 [1]
  broadcasts_S2048x1_S2048x64 : S2048x1.Broadcasts S2048x64
  natLt_1_32 : 1 < 32
  reduces_S2048x64_S2048 : S2048x64.Reduces [1] S2048
  shapeCasts_S2048x1_S8x256 : S2048x1.ShapeCasts S8x256
  reduces_S8x256_S8 : S8x256.Reduces [1] S8
  shapeCasts_S8_S8x1 : S8.ShapeCasts S8x1
  shapeCasts_S8x1_S8x1 : S8x1.ShapeCasts S8x1
  reducesTo_S64x1_S_d0_1 : S64x1.ReducesTo [0, 1] S_
  h_S_ : 0 < S_.numel
  dot_S2048x256_S64x256_S2048x64_1_1_0_0_n_n_wf : DotDims.WF S2048x256 S64x256 S2048x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S64x2048x256.size a
  hwx0_0 : ∀ i : grid0.Coords, EltTy.bits .f32 = 32 ∨ (Rect.block (s := S64x2048x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1.size a ≤ S64x2048x1.size a
  hwx0_1 : ∀ i : grid0.Coords, EltTy.bits .i32 = 32 ∨ (Rect.block (s := S64x2048x1) S8x256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S64x1.size a
  hwx0_3 : ∀ i : grid0.Coords, EltTy.bits .f32 = 32 ∨ (Rect.block (s := S64x1) S8x1.size (cc0_transform_3 i) (hinb0_3 i)).WholeWords (EltTy.packing .f32)

variable [Facts₀]

def dot_S2048x256_S64x256_S2048x64_1_1_0_0_n_n : DotDims S2048x256 S64x256 S2048x64 where
  lhsContracting := [1]
  rhsContracting := [1]
  lhsNonContracting := [0]
  rhsNonContracting := [0]
  lhsBatch := []
  rhsBatch := []
  wf := dot_S2048x256_S64x256_S2048x64_1_1_0_0_n_n_wf

abbrev win0_0 : Pipeline.Window sig grid0 :=
  Pipeline.Window.ofSpec (Memref.whole main_arg0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S64x2048 : Shape := ⟨2, ![64, 2048]⟩
abbrev S64x256 : Shape := ⟨2, ![64, 256]⟩
abbrev S64x2048x1 : Shape := ⟨3, ![64, 2048, 1]⟩
abbrev S1x1x64 : Shape := ⟨3, ![1, 1, 64]⟩
abbrev S64x2048x64 : Shape := ⟨3, ![64, 2048, 64]⟩
abbrev S_ : Shape := ⟨0, ![]⟩
abbrev S64 : Shape := ⟨1, ![64]⟩
abbrev S64x1 : Shape := ⟨2, ![64, 1]⟩

abbrev nBuf : Space → Nat
  | .hbm => 54
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S64x2048, .i32⟩
  | .hbm, ⟨2, _⟩ => ⟨S64x256, .f32⟩
  | .hbm, ⟨3, _⟩ => ⟨S64x2048x1, .i32⟩
  | .hbm, ⟨4, _⟩ => ⟨S1x1x64, .i32⟩
  | .hbm, ⟨5, _⟩ => ⟨S64x2048x64, .i32⟩
  | .hbm, ⟨6, _⟩ => ⟨S64x2048x64, .i32⟩
  | .hbm, ⟨7, _⟩ => ⟨S64x2048x64, .i1⟩
  | .hbm, ⟨8, _⟩ => ⟨S64x2048x64, .f32⟩
  | .hbm, ⟨9, _⟩ => ⟨S64x2048x256, .f32⟩
  | .hbm, ⟨10, _⟩ => ⟨S_, .f32⟩
  | .hbm, ⟨11, _⟩ => ⟨S64x2048, .f32⟩
  | .hbm, ⟨12, _⟩ => ⟨S64x2048x1, .f32⟩
  | .hbm, ⟨13, _⟩ => ⟨S64x2048x1, .f32⟩
  | .hbm, ⟨14, _⟩ => ⟨S_, .f32⟩
  | .hbm, ⟨15, _⟩ => ⟨S64x2048x1, .f32⟩
  | .hbm, ⟨16, _⟩ => ⟨S64x2048x1, .f32⟩
  | .hbm, ⟨17, _⟩ => ⟨S64x2048x256, .f32⟩
  | .hbm, ⟨18, _⟩ => ⟨S64x2048x256, .f32⟩
  | .hbm, ⟨19, _⟩ => ⟨S64x256, .f32⟩
  | .hbm, ⟨20, _⟩ => ⟨S_, .f32⟩
  | .hbm, ⟨21, _⟩ => ⟨S64, .f32⟩
  | .hbm, ⟨22, _⟩ => ⟨S64x1, .f32⟩
  | .hbm, ⟨23, _⟩ => ⟨S64x1, .f32⟩
  | .hbm, ⟨24, _⟩ => ⟨S_, .f32⟩
  | .hbm, ⟨25, _⟩ => ⟨S64x1, .f32⟩
  | .hbm, ⟨26, _⟩ => ⟨S64x1, .f32⟩
  | .hbm, ⟨27, _⟩ => ⟨S64x256, .f32⟩
  | .hbm, ⟨28, _⟩ => ⟨S64x256, .f32⟩
  | .hbm, ⟨29, _⟩ => ⟨S64x2048x64, .f32⟩
  | .hbm, ⟨30, _⟩ => ⟨S64x2048x64, .f32⟩
  | .hbm, ⟨31, _⟩ => ⟨S_, .f32⟩
  | .hbm, ⟨32, _⟩ => ⟨S64x2048x64, .f32⟩
  | .hbm, ⟨33, _⟩ => ⟨S64x2048x64, .f32⟩
  | .hbm, ⟨34, _⟩ => ⟨S64x2048x64, .f32⟩
  | .hbm, ⟨35, _⟩ => ⟨S64x2048x64, .f32⟩
  | .hbm, ⟨36, _⟩ => ⟨S_, .f32⟩
  | .hbm, ⟨37, _⟩ => ⟨S64x2048, .f32⟩
  | .hbm, ⟨38, _⟩ => ⟨S_, .f32⟩
  | .hbm, ⟨39, _⟩ => ⟨S64x2048x64, .f32⟩
  | .hbm, ⟨40, _⟩ => ⟨S64x2048x64, .f32⟩
  | .hbm, ⟨41, _⟩ => ⟨S64x2048x64, .f32⟩
  | .hbm, ⟨42, _⟩ => ⟨S_, .f32⟩
  | .hbm, ⟨43, _⟩ => ⟨S64x2048x64, .f32⟩
  | .hbm, ⟨44, _⟩ => ⟨S64x2048x64, .f32⟩
  | .hbm, ⟨45, _⟩ => ⟨S64x2048x64, .f32⟩
  | .hbm, ⟨46, _⟩ => ⟨S64x2048x64, .f32⟩
  | .hbm, ⟨47, _⟩ => ⟨S_, .f32⟩
  | .hbm, ⟨48, _⟩ => ⟨S64x2048, .f32⟩
  | .hbm, ⟨49, _⟩ => ⟨S64x2048, .f32⟩
  | .hbm, ⟨50, _⟩ => ⟨S64x2048, .f32⟩
  | .hbm, ⟨51, _⟩ => ⟨S64x2048, .f32⟩
  | .hbm, ⟨52, _⟩ => ⟨S_, .f32⟩
  | .hbm, ⟨53, _⟩ => ⟨S_, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_v0 : Ref sig .tc := ⟨.hbm, 19, rfl⟩
abbrev main_call2_cst : Ref sig .tc := ⟨.hbm, 20, rfl⟩
abbrev main_call2_v1 : Ref sig .tc := ⟨.hbm, 21, rfl⟩
abbrev main_call2_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩

abbrev nD : Nat := 1
abbrev τ : Topo := Topo.v7x

variable {F : FTy → Type} [FloatOps F]

class Facts₀ : Prop where
  bcast_S64x2048_S64x2048x1_0_1 : S64x2048.BroadcastsInDim S64x2048x1 (![0, 1] : Fin 2 → Fin S64x2048x1.rank)
  bcast_S64x2048x1_S64x2048x64_0_1_2 : S64x2048x1.BroadcastsInDim S64x2048x64 (![0, 1, 2] : Fin 3 → Fin S64x2048x64.rank)
  bcast_S1x1x64_S64x2048x64_0_1_2 : S1x1x64.BroadcastsInDim S64x2048x64 (![0, 1, 2] : Fin 3 → Fin S64x2048x64.rank)
  reducesTo_S64x2048x256_S64x2048_d2 : S64x2048x256.ReducesTo [2] S64x2048
  h_S_ : 0 < S_.numel
  bcast_S_S64x2048x1 : S_.BroadcastsInDim S64x2048x1 (![] : Fin 0 → Fin S64x2048x1.rank)
  bcast_S64x2048x1_S64x2048x256_0_1_2 : S64x2048x1.BroadcastsInDim S64x2048x256 (![0, 1, 2] : Fin 3 → Fin S64x2048x256.rank)
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S_S64x2048x64 : S_.BroadcastsInDim S64x2048x64 (![] : Fin 0 → Fin S64x2048x64.rank)
  reducesTo_S64x2048x64_S64x2048_d2 : S64x2048x64.ReducesTo [2] S64x2048
  reducesTo_S64x2048_S_d0_1 : S64x2048.ReducesTo [0, 1] S_
  dot_S64x2048x256_S64x256_S64x2048x64_2_1_01_0_n_n_wf : DotDims.WF S64x2048x256 S64x256 S64x2048x64 [2] [1] [0, 1] [0] [] []

variable [Facts₀]

def dot_S64x2048x256_S64x256_S64x2048x64_2_1_01_0_n_n : DotDims S64x2048x256 S64x256 S64x2048x64 where
  lhsContracting := [2]
  rhsContracting := [1]
  lhsNonContracting := [0, 1]
  rhsNonContracting := [0]
  lhsBatch := []
  rhsBatch := []
  wf := dot_S64x2048x256_S64x256_S64x2048x64_2_1_01_0_n_n_wf

class Facts : Prop extends Facts₀ where

variable [Facts]
-- ==== Proof.Spec.lean ====
/-
  The loss as ONE function of the three argument arrays, on the extended reals.

  For a row (b, s) of the feature array X : [64, 2048, 256], with label L(b, s) and prototypes P : [64, 256]:
    the row and each prototype are divided by their Euclidean norms (floored at a small constant);
    sim(b, s, t) is the inner product of the normalised row with the normalised prototype t;
    mask(b, s, t) is 1 where t is the row's label and 0 elsewhere;
    pos = sum over t of exp(sim * mask * 2) * mask,  neg = the same with 1 - mask in place of mask;
    the row's loss is -log(pos / neg), and the result is the sum of the row losses over all (b, s).
  Both programs compute exactly these operations row by row; they differ only in how the final sum is
  grouped (blocks of 256 rows, eight blocks per batch entry, then the 64 batch entries, against one sum
  over all rows), which addition on the extended reals, being commutative and associative, does not see.
-/
import Idealize.ShloMosaic.PureOps.Ideal
import Idealize.ShloMosaic.PureOps.Ideal.Laws
import Idealize.ShloMosaic.Lib.ValueIdx

noncomputable section

namespace Cert.Loss

open Idealize.ShloMosaic Idealize.ShloMosaic.ValueIdx

abbrev SX : Shape := ⟨3, ![64, 2048, 256]⟩
abbrev SL : Shape := ⟨2, ![64, 2048]⟩
abbrev SP : Shape := ⟨2, ![64, 256]⟩

section
variable (X : SX.Idx → EReal) (Lb : SL.Idx → BitVec 32) (P : SP.Idx → EReal)

/-- The floored Euclidean norm of feature row (b, s). -/
def fnorm (b : Fin 64) (s : Fin 2048) : EReal :=
  max (Ideal.sqrt (∑ k : Fin 256, X (ix3 b s k) * X (ix3 b s k))) (Ideal.ofBits .f32 0x2B8CBCCC#32)

/-- The floored Euclidean norm of prototype t. -/
def pnorm (t : Fin 64) : EReal :=
  max (Ideal.sqrt (∑ k : Fin 256, P (ix2 t k) * P (ix2 t k))) (Ideal.ofBits .f32 0x322BCC77#32)

/-- The cosine similarity of row (b, s) with prototype t. -/
def sim (b : Fin 64) (s : Fin 2048) (t : Fin 64) : EReal :=
  ∑ d : Fin 256, Ideal.div (X (ix3 b s d)) (fnorm X b s) * Ideal.div (P (ix2 t d)) (pnorm P t)

/-- The one-hot mask of the row's label. -/
def mask (b : Fin 64) (s : Fin 2048) (t : Fin 64) : EReal :=
  if Lb (ix2 b s) = BitVec.ofNat 32 t.val then 1 else 0

def pos (b : Fin 64) (s : Fin 2048) : EReal :=
  ∑ t : Fin 64, Ideal.exp (sim X P b s t * mask Lb b s t * Ideal.ofBits .f32 0x40000000#32) * mask Lb b s t

def neg (b : Fin 64) (s : Fin 2048) : EReal :=
  ∑ t : Fin 64, Ideal.exp (sim X P b s t * (Ideal.ofBits .f32 0x3F800000#32 - mask Lb b s t) * Ideal.ofBits .f32 0x40000000#32)
    * (Ideal.ofBits .f32 0x3F800000#32 - mask Lb b s t)

/-- The loss of row (b, s). -/
def rowLoss (b : Fin 64) (s : Fin 2048) : EReal :=
  -(Ideal.log (Ideal.div (pos X Lb P b s) (neg X Lb P b s)))

/-- The whole loss: the sum of the row losses. -/
def total : EReal := ∑ j : SL.Idx, rowLoss X Lb P (j 0) (j 1)

end

/-! ## The mask, as each program writes it -/

/-- An equality test converted unsigned to a float is the indicator of equality. -/
theorem mask_unsigned (a b : BitVec 32) :
    (((IntOp.cmpi .eq a b).toNat : ℝ) : EReal) = if a = b then 1 else 0 := by
  by_cases h : a = b
  · simp [IntOp.cmpi, h]
  · simp [IntOp.cmpi, h]

/-- An equality test widened to 32 bits and converted signed to a float is the same indicator. -/
theorem mask_signed (a b : BitVec 32) :
    ((((IntOp.cmpi .eq a b).setWidth 32).toInt : ℝ) : EReal) = if a = b then 1 else 0 := by
  by_cases h : a = b
  · simp [IntOp.cmpi, h]
  · have hb : (a == b) = false := by simpa using h
    simp [IntOp.cmpi, h, hb]

/-! ## Regrouping the sum over the rows -/

/-- Row s' of block j of the 2048 rows. -/
def rowOf (j : Fin 8) (s' : Fin 256) : Fin 2048 := ⟨256 * j.val + s'.val, by omega⟩

/-- A sum over the 2048 rows is the sum over the eight blocks of the sums over each block's 256 rows. -/
theorem sum_rows {M : Type*} [AddCommMonoid M] (g : Fin 2048 → M) :
    ∑ s : Fin 2048, g s = ∑ j : Fin 8, ∑ s' : Fin 256, g (rowOf j s') := by
  rw [← Fintype.sum_prod_type' (f := fun j s' => g (rowOf j s'))]
  refine (Fintype.sum_equiv (finProdFinEquiv (m := 8) (n := 256)) _ _ (fun p => ?_)).symm
  refine congrArg g (Fin.ext ?_)
  show 256 * p.1.val + p.2.val = p.2.val + 256 * p.1.val
  omega

/-- Batch entry b' of the tile of eight batch entries that starts at 8 * bi. -/
def batchOf (bi : Fin 8) (b' : Fin 8) : Fin 64 := ⟨8 * bi.val + b'.val, by omega⟩

section
variable (X : SX.Idx → EReal) (Lb : SL.Idx → BitVec 32) (P : SP.Idx → EReal)

/-- The loss of block j (256 rows) of batch entry b. -/
def blockLoss (b : Fin 64) (j : Fin 8) : EReal := ∑ s' : Fin 256, rowLoss X Lb P b (rowOf j s')

/-- The same with the block numbered by a natural number (zero past the eighth block). -/
def blockLossN (b : Fin 64) (j : ℕ) : EReal := if h : j < 8 then blockLoss X Lb P b ⟨j, h⟩ else 0

/-- The loss of batch entry b: its eight blocks. -/
def batchLoss (b : Fin 64) : EReal := ∑ j : Fin 8, blockLoss X Lb P b j

/-- The eight numbered blocks add up to the batch entry's loss. -/
theorem sum_range_blockLossN (b : Fin 64) :
    ∑ j ∈ Finset.range 8, blockLossN X Lb P b j = batchLoss X Lb P b := by
  unfold batchLoss
  rw [← Fin.sum_univ_eq_sum_range (fun j => blockLossN X Lb P b j) 8]
  exact Finset.sum_congr rfl fun j _ => dif_pos j.isLt

end

/-- The whole loss, grouped as the kernel sums it. -/
theorem total_blocks (X : SX.Idx → EReal) (Lb : SL.Idx → BitVec 32) (P : SP.Idx → EReal) :
    total X Lb P = ∑ b : Fin 64, ∑ j : Fin 8, ∑ s' : Fin 256, rowLoss X Lb P b (rowOf j s') := by
  unfold total
  rw [sum_idx2]
  exact Finset.sum_congr rfl fun b _ => sum_rows _

/-- The whole loss is the sum of the 64 batch entries' losses. -/
theorem total_batches (X : SX.Idx → EReal) (Lb : SL.Idx → BitVec 32) (P : SP.Idx → EReal) :
    total X Lb P = ∑ b : Fin 64, batchLoss X Lb P b :=
  total_blocks X Lb P

end Cert.Loss

end
-- ==== Proof.RefLoss.lean ====
/-
  The reference program's result, read one operation at a time, is the loss Cert.Loss.total:
  each stage of the program, read at an index given by its coordinates, is the corresponding
  function of Cert.Loss there (mask, floored norms, similarity, the two sums over the prototypes,
  the row loss), and the last stage is the sum of the row losses over all rows.
-/
import proofs.«109149_j87574383165821_1_alg».proof.Proof.Gen.ReferenceIdeal.Read
import proofs.«109149_j87574383165821_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx
open Cert.ReferenceIdeal.Read

variable (x0 : (⟨S64x2048x256, .f32⟩ : BufTy).Contents (Elt Ideal)) (x1 : (⟨S64x2048, .i32⟩ : BufTy).Contents (Elt Ideal)) (x2 : (⟨S64x256, .f32⟩ : BufTy).Contents (Elt Ideal))

/-! ## The mask -/

/-- The one-hot stage at (b, s, t) is the indicator that the label of row (b, s) is t. -/
theorem mask_at (b : Fin 64) (s : Fin 2048) (t : Fin 64) :
    val_main_v0 (F := Ideal) x1 (ix3 b s t) = Cert.Loss.mask x1 b s t := by
  rw [val_main_v0_apply, val_main_call0_v4_apply, val_main_call0_v2_apply, val_main_call0_v0_apply,
    val_main_call0_v3_apply, val_main_call0_v1_apply]
  have e1 : idx_main_call0_v0 (idx_main_call0_v2 (ix3 b s t : S64x2048x64.Idx)) = ix2 b s :=
    funext fun a => Fin.ext (by match a with | ⟨0, _⟩ => rfl | ⟨1, _⟩ => rfl)
  rw [e1]
  show (((IntOp.cmpi .eq (x1 (ix2 b s)) (BitVec.ofNat 32 t.val)).toNat : ℝ) : EReal) = _
  rw [Cert.Loss.mask_unsigned]
  rfl

/-! ## The two floored norms and the normalised operands -/

/-- The floored norm of feature row (b, s), broadcast along the row. -/
theorem fnorm_at (b : Fin 64) (s : Fin 2048) (k : Fin 256) :
    val_main_v4 (F := Ideal) x0 (ix3 b s k) = Cert.Loss.fnorm x0 b s := by
  rw [val_main_v4_apply, val_main_v3_apply, val_main_v1_apply, val_main_call1_v2_apply, val_main_call1_v1_apply,
    val_main_v2_apply, val_main_cst_apply, val_main_call1_cst_apply]
  have e1 : ∀ d : Fin 256, idx_main_call1_v1 (idx_main_call1_v2 (idx_main_v4 (ix3 b s k : S64x2048x256.Idx))) d = ix3 b s d :=
    fun d => funext fun a => Fin.ext (by match a with | ⟨0, _⟩ => rfl | ⟨1, _⟩ => rfl | ⟨2, _⟩ => rfl)
  simp only [e1, val_main_call1_v0_apply, Ideal.mulf_def, Ideal.maximumf_def, Ideal.hostUnary_sqrt_def, Ideal.ofBits_def,
    Ideal.ofBits_zero_f32, zero_add]
  rfl

/-- The normalised feature row. -/
theorem fdiv_at (b : Fin 64) (s : Fin 2048) (k : Fin 256) :
    val_main_v5 (F := Ideal) x0 (ix3 b s k) = Ideal.div (x0 (ix3 b s k)) (Cert.Loss.fnorm x0 b s) := by
  rw [val_main_v5_apply, fnorm_at, Ideal.hostDivf_def]

/-- The floored norm of prototype t, broadcast along the prototype. -/
theorem pnorm_at (t : Fin 64) (k : Fin 256) :
    val_main_v9 (F := Ideal) x2 (ix2 t k) = Cert.Loss.pnorm x2 t := by
  rw [val_main_v9_apply, val_main_v8_apply, val_main_v6_apply, val_main_call2_v2_apply, val_main_call2_v1_apply,
    val_main_v7_apply, val_main_cst_0_apply, val_main_call2_cst_apply]
  have e1 : ∀ d : Fin 256, idx_main_call2_v1 (idx_main_call2_v2 (idx_main_v9 (ix2 t k : S64x256.Idx))) d = ix2 t d :=
    fun d => funext fun a => Fin.ext (by match a with | ⟨0, _⟩ => rfl | ⟨1, _⟩ => rfl)
  simp only [e1, val_main_call2_v0_apply, Ideal.mulf_def, Ideal.maximumf_def, Ideal.hostUnary_sqrt_def, Ideal.ofBits_def,
    Ideal.ofBits_zero_f32, zero_add]
  rfl

/-- The normalised prototype. -/
theorem pdiv_at (t : Fin 64) (k : Fin 256) :
    val_main_v10 (F := Ideal) x2 (ix2 t k) = Ideal.div (x2 (ix2 t k)) (Cert.Loss.pnorm x2 t) := by
  rw [val_main_v10_apply, pnorm_at, Ideal.hostDivf_def]

/-! ## The similarities -/

/-- The contraction at (b, s, t) is the inner product of the normalised row with the normalised prototype. -/
theorem sim_at (b : Fin 64) (s : Fin 2048) (t : Fin 64) :
    val_main_v11 (F := Ideal) x0 x2 (ix3 b s t) = Cert.Loss.sim x0 x2 b s t := by
  rw [val_main_v11_apply]
  unfold Cert.Loss.sim
  refine Finset.sum_congr rfl fun d _ => ?_
  have el : lidx_main_v11 (ix3 b s t : S64x2048x64.Idx) d = ix3 b s d :=
    funext fun a => Fin.ext (by match a with | ⟨0, _⟩ => rfl | ⟨1, _⟩ => rfl | ⟨2, _⟩ => rfl)
  have er : ridx_main_v11 (ix3 b s t : S64x2048x64.Idx) d = ix2 t d :=
    funext fun a => Fin.ext (by match a with | ⟨0, _⟩ => rfl | ⟨1, _⟩ => rfl)
  rw [el, er, fdiv_at, pdiv_at]

/-! ## The two sums over the prototypes -/

/-- The complement of the mask. -/
theorem cmask_at (b : Fin 64) (s : Fin 2048) (t : Fin 64) :
    val_main_v19 (F := Ideal) x1 (ix3 b s t) = Ideal.ofBits .f32 0x3F800000#32 - Cert.Loss.mask x1 b s t := by
  rw [val_main_v19_apply, val_main_v18_apply, val_main_cst_3_apply, mask_at, Ideal.subf_def, Ideal.ofBits_def]

/-- The summand of the positive sum. -/
theorem posterm_at (b : Fin 64) (s : Fin 2048) (t : Fin 64) :
    val_main_v16 (F := Ideal) x0 x1 x2 (ix3 b s t)
      = Ideal.exp (Cert.Loss.sim x0 x2 b s t * Cert.Loss.mask x1 b s t * Ideal.ofBits .f32 0x40000000#32) * Cert.Loss.mask x1 b s t := by
  rw [val_main_v16_apply, val_main_v15_apply, val_main_v14_apply, val_main_v12_apply, val_main_v13_apply,
    val_main_cst_1_apply, sim_at, mask_at]
  simp only [Ideal.mulf_def, Ideal.hostUnary_exp_def, Ideal.ofBits_def]

/-- The summand of the negative sum. -/
theorem negterm_at (b : Fin 64) (s : Fin 2048) (t : Fin 64) :
    val_main_v24 (F := Ideal) x0 x1 x2 (ix3 b s t)
      = Ideal.exp (Cert.Loss.sim x0 x2 b s t * (Ideal.ofBits .f32 0x3F800000#32 - Cert.Loss.mask x1 b s t) * Ideal.ofBits .f32 0x40000000#32)
        * (Ideal.ofBits .f32 0x3F800000#32 - Cert.Loss.mask x1 b s t) := by
  rw [val_main_v24_apply, val_main_v23_apply, val_main_v22_apply, val_main_v20_apply, val_main_v21_apply,
    val_main_cst_4_apply, sim_at, cmask_at]
  simp only [Ideal.mulf_def, Ideal.hostUnary_exp_def, Ideal.ofBits_def]

/-- The positive sum of row (b, s). -/
theorem pos_at (b : Fin 64) (s : Fin 2048) :
    val_main_v17 (F := Ideal) x0 x1 x2 (ix2 b s) = Cert.Loss.pos x0 x1 x2 b s := by
  rw [val_main_v17_apply, val_main_cst_2_apply, Ideal.ofBits_def, Ideal.ofBits_zero_f32, zero_add]
  unfold Cert.Loss.pos
  refine Finset.sum_congr rfl fun t _ => ?_
  have e : idx_main_v17 (ix2 b s : S64x2048.Idx) t = ix3 b s t :=
    funext fun a => Fin.ext (by match a with | ⟨0, _⟩ => rfl | ⟨1, _⟩ => rfl | ⟨2, _⟩ => rfl)
  rw [e, posterm_at]

/-- The negative sum of row (b, s). -/
theorem neg_at (b : Fin 64) (s : Fin 2048) :
    val_main_v25 (F := Ideal) x0 x1 x2 (ix2 b s) = Cert.Loss.neg x0 x1 x2 b s := by
  rw [val_main_v25_apply, val_main_cst_5_apply, Ideal.ofBits_def, Ideal.ofBits_zero_f32, zero_add]
  unfold Cert.Loss.neg
  refine Finset.sum_congr rfl fun t _ => ?_
  have e : idx_main_v25 (ix2 b s : S64x2048.Idx) t = ix3 b s t :=
    funext fun a => Fin.ext (by match a with | ⟨0, _⟩ => rfl | ⟨1, _⟩ => rfl | ⟨2, _⟩ => rfl)
  rw [e, negterm_at]

/-! ## The row losses and their sum -/

/-- The loss of row (b, s). -/
theorem rowLoss_at (b : Fin 64) (s : Fin 2048) :
    val_main_v28 (F := Ideal) x0 x1 x2 (ix2 b s) = Cert.Loss.rowLoss x0 x1 x2 b s := by
  rw [val_main_v28_apply, val_main_v27_apply, val_main_v26_apply, pos_at, neg_at]
  simp only [Ideal.hostNegf_def, Ideal.negf_def, Ideal.hostUnary_log_def, Ideal.hostDivf_def]
  rfl

/-- The program's result is the whole loss. -/
theorem ref_total :
    Cert.ReferenceIdeal.Read.val_main_v29 (F := Ideal) x0 x1 x2 = fun _ => Cert.Loss.total x0 x1 x2 := by
  funext i
  rw [val_main_v29_apply, val_main_cst_6_apply, Ideal.ofBits_def, Ideal.ofBits_zero_f32, zero_add]
  unfold Cert.Loss.total
  refine Finset.sum_congr rfl fun j _ => ?_
  exact (congrArg (val_main_v28 (F := Ideal) x0 x1 x2) (eq_ix2 j)).trans (rowLoss_at x0 x1 x2 (j 0) (j 1))

end Cert.ReferenceIdeal.RefValue

end
-- ==== Proof.CasePieces.lean ====
/-
  What one grid point leaves in the output block's buffer, as a value.
  The body stores once into the [8, 1] output block: the block's previous contents plus the tile's eight partial sums.
  At the first row block of a batch tile it first overwrites the block with zeros and reads those back, so there the
  previous contents are the zero block; at every other row block they are what the point before left.
-/
import proofs.«109149_j87574383165821_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not the first row block of its batch tile: the previous contents `xo3` plus the partial sums. -/
theorem out_B (c : Dev nD) (i : grid0.Coords) (arg2 : Memref sig .tc .vmem S8x256x256 .f32) (harg2 : arg2.IsWhole) (arg3 : Memref sig .tc .vmem S8x256x1 .i32) (harg3 : arg3.IsWhole) (arg4 : Memref sig .tc .vmem S64x256 .f32) (harg4 : arg4.IsWhole) (arg5 : Memref sig .tc .vmem S8x1 .f32) (harg5 : arg5.IsWhole) (hc0 : ¬cond0_0 i)
    (x0 : Vec F S8x256x256 .f32) (x1 : Vec F S8x256x1 .i32) (x2 : Vec F S64x256 .f32) (xo3 : Vec F S8x1 .f32) :
    out0_B_3 c i arg2 harg2 arg3 harg3 arg4 harg4 arg5 harg5 hc0 x0 x1 x2 xo3
      = k0_pay1 (k0_pay3 x0 x2) (k0_pay4 x1) (k0_pay5 x0 x2 x1) xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz2]
  simp only [View.readAt_eq_ld, harg2.read_unread, harg3.read_unread, harg4.read_unread, harg5.read_unread,
    View.ld_unit_zero (S := S8x256x256) hz3, View.ld_unit_zero (S := S8x256x1) hz3, View.ld_unit_zero (S := S64x256) hz2,
    View.ld_unit_zero (S := S8x1) hz2]

/-- The first row block of a batch tile: the zero block plus the partial sums. -/
theorem out_A (c : Dev nD) (i : grid0.Coords) (arg2 : Memref sig .tc .vmem S8x256x256 .f32) (harg2 : arg2.IsWhole) (arg3 : Memref sig .tc .vmem S8x256x1 .i32) (harg3 : arg3.IsWhole) (arg4 : Memref sig .tc .vmem S64x256 .f32) (harg4 : arg4.IsWhole) (arg5 : Memref sig .tc .vmem S8x1 .f32) (harg5 : arg5.IsWhole) (hc0 : cond0_0 i)
    (x0 : Vec F S8x256x256 .f32) (x1 : Vec F S8x256x1 .i32) (x2 : Vec F S64x256 .f32) :
    out0_A_3 c i arg2 harg2 arg3 harg3 arg4 harg4 arg5 harg5 hc0 x0 x1 x2
      = k0_pay1 (k0_pay3 x0 x2) (k0_pay4 x1) (k0_pay5 x0 x2 x1) (k0_pay2 (F := F)) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg4.read_unread,
    View.ld_unit_zero (S := S8x256x256) hz3, View.ld_unit_zero (S := S8x256x1) hz3, View.ld_unit_zero (S := S64x256) hz2]

end Cert.KernelIdeal.CaseValue

end
-- ==== Proof.RowOps.lean ====
/-
  The kernel's matrix product read at an index: the product of a [2048, 256] array with the transpose of a [64, 256]
  array, into a zero accumulator, is at (r, t) the sum over d of the products of the entries (r, d) and (t, d).
-/
import proofs.«109149_j87574383165821_1_alg».proof.Proof.Gen.KernelIdeal
import Idealize.ShloMosaic.Lib.ValueIdx
import Idealize.ShloMosaic.Lib.ValueLayout
import Idealize.ShloMosaic.PureOps.Ideal.Laws

noncomputable section

namespace Cert.KernelIdeal.RowOps

open Idealize.ShloMosaic Idealize.ShloMosaic.ValueIdx Cert.KernelIdeal

/-- The product's left operand index at output (i) and contraction coordinate q: row `i 0`, column q. -/
theorem lhs_row (i : S2048x64.Idx) (q : dot_S2048x256_S64x256_S2048x64_1_1_0_0_n_n.contr.Idx) : (dot_S2048x256_S64x256_S2048x64_1_1_0_0_n_n.lhsIdx i q 0).val = (i 0).val := by
  unfold DotDims.lhsIdx
  rw [dif_neg (show ¬(0 : Fin S2048x256.rank) ∈ dot_S2048x256_S64x256_S2048x64_1_1_0_0_n_n.lhsBatch by decide), dif_pos (show (0 : Fin S2048x256.rank) ∈ dot_S2048x256_S64x256_S2048x64_1_1_0_0_n_n.lhsNonContracting by decide)]
  rfl
theorem lhs_col (i : S2048x64.Idx) (q : dot_S2048x256_S64x256_S2048x64_1_1_0_0_n_n.contr.Idx) : (dot_S2048x256_S64x256_S2048x64_1_1_0_0_n_n.lhsIdx i q 1).val = (q ⟨0, by decide⟩).val :=
  dot_S2048x256_S64x256_S2048x64_1_1_0_0_n_n.lhsIdx_val_of_single rfl i q
/-- The right operand index: row `i 1` (the output's column), column q. -/
theorem rhs_row (i : S2048x64.Idx) (q : dot_S2048x256_S64x256_S2048x64_1_1_0_0_n_n.contr.Idx) : (dot_S2048x256_S64x256_S2048x64_1_1_0_0_n_n.rhsIdx i q 0).val = (i 1).val := by
  unfold DotDims.rhsIdx
  rw [dif_neg (show ¬(0 : Fin S64x256.rank) ∈ dot_S2048x256_S64x256_S2048x64_1_1_0_0_n_n.rhsBatch by decide), dif_pos (show (0 : Fin S64x256.rank) ∈ dot_S2048x256_S64x256_S2048x64_1_1_0_0_n_n.rhsNonContracting by decide)]
  rfl
theorem rhs_col (i : S2048x64.Idx) (q : dot_S2048x256_S64x256_S2048x64_1_1_0_0_n_n.contr.Idx) : (dot_S2048x256_S64x256_S2048x64_1_1_0_0_n_n.rhsIdx i q 1).val = (q ⟨0, by decide⟩).val :=
  dot_S2048x256_S64x256_S2048x64_1_1_0_0_n_n.rhsIdx_val_of_single rfl i q

/-- The kernel's matrix product, into a zero accumulator, read at (r, t): the inner product of row r of the left
    operand with row t of the right one. -/
theorem matmul_rows_apply {φ₁ φ₂ : FTy} (A : FVec Ideal S2048x256 φ₁) (B : FVec Ideal S64x256 φ₂) (r : Fin 2048) (t : Fin 64) :
    matmul dot_S2048x256_S64x256_S2048x64_1_1_0_0_n_n none A B (constant S2048x64 .f32 0x00000000#32) (ix2 r t)
      = ∑ d : Fin 256, A (ix2 r d) * B (ix2 t d) := by
  simp only [matmul]
  rw [Ideal.matmul_constant_zero_apply, ← Equiv.sum_comp (ValueIdx.contrEquiv1 dot_S2048x256_S64x256_S2048x64_1_1_0_0_n_n 256 rfl rfl).symm]
  refine Finset.sum_congr rfl fun k _ => ?_
  have hk := ValueIdx.contrEquiv1_symm_val dot_S2048x256_S64x256_S2048x64_1_1_0_0_n_n 256 rfl rfl k
  have el : dot_S2048x256_S64x256_S2048x64_1_1_0_0_n_n.lhsIdx (ix2 r t) ((ValueIdx.contrEquiv1 dot_S2048x256_S64x256_S2048x64_1_1_0_0_n_n 256 rfl rfl).symm k) = ix2 r k := funext fun a => Fin.ext (by
    match a with
    | ⟨0, _⟩ => exact lhs_row _ _
    | ⟨1, _⟩ => exact (lhs_col _ _).trans hk)
  have er : dot_S2048x256_S64x256_S2048x64_1_1_0_0_n_n.rhsIdx (ix2 r t) ((ValueIdx.contrEquiv1 dot_S2048x256_S64x256_S2048x64_1_1_0_0_n_n 256 rfl rfl).symm k) = ix2 t k := funext fun a => Fin.ext (by
    match a with
    | ⟨0, _⟩ => exact rhs_row _ _
    | ⟨1, _⟩ => exact (rhs_col _ _).trans hk)
  rw [el, er]

end Cert.KernelIdeal.RowOps

end
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibRowNorm.lean ====
/-
  Row sums and row normalisation on the extended reals, read at an index given by coordinates.
    * the sum of each row of an [a, n] array, kept as a column [a, 1] (a sum along the second axis followed by the
      cast of the [a] vector of sums to a column), reads at row p the sum over k of the entries (p, k);
    * each row of an [a, n] array divided by its floored Euclidean norm — the array over the broadcast of the column
      max(sqrt(row sums of squares), floor) — reads at (p, c) the entry over the larger of the square root of the row's
      sum of squares and the floor.
  General in the extents and in the floor; the side conditions of the reduction, the cast and the broadcast are
  variables, so that whatever proofs a program's text carries unify with them.  Built on the column forms of the cast
  and the broadcast and on the sum along the second axis (the two modules imported below, which travel with this one).
-/
import proofs.«109149_j87574383165821_1_alg».proof.Proof.LibColumnLayout
import proofs.«109149_j87574383165821_1_alg».proof.Proof.LibReduceLayout
import Idealize.ShloMosaic.Lib.ValueIdx
import Idealize.ShloMosaic.Lib.ValueLayout
import Idealize.ShloMosaic.PureOps.Ideal.Laws

noncomputable section

namespace Cert.Lib.RowNorm

open Idealize.ShloMosaic Idealize.ShloMosaic.ValueIdx Cert.Lib.ColumnLayout Cert.Lib.ReduceLayout

/-- The row sums of an [a, n] array kept as a column: at row p, the sum of the row's entries. -/
theorem rowSum_col_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (hc : (⟨1, ![a]⟩ : Shape).ShapeCasts ⟨2, ![a, 1]⟩) (p : Fin a) (u : Fin 1) :
    shapeCast ⟨2, ![a, 1]⟩ (multiReduction .add [1] ⟨1, ![a]⟩ v acc h hφ hacc) hc (ix2 p u) = ∑ k : Fin n, v (ix2 p k) :=
  (shapeCast_a_a1_apply _ hc p u).trans (sum_axis1_apply v acc h hφ hacc p)

/-- Each row divided by its floored Euclidean norm, read at (p, c). -/
theorem unitRows_apply {a n : ℕ} (v : FVec Ideal ⟨2, ![a, n]⟩ .f32) (acc : BitVec 32) (e : Ideal .f32)
    (h : (⟨2, ![a, n]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (c : Fin n) :
    divf v (broadcastTo ⟨2, ![a, n]⟩
        (maximumf (sqrt (shapeCast ⟨2, ![a, 1]⟩ (multiReduction .add [1] ⟨1, ![a]⟩ (mulf v v) acc h hφ hacc) hc))
          (broadcast ⟨2, ![a, 1]⟩ e)) hb) (ix2 p c)
      = Ideal.div (v (ix2 p c)) (max (Ideal.sqrt (∑ k : Fin n, v (ix2 p k) * v (ix2 p k))) e) := by
  refine congrArg (Ideal.div (v (ix2 p c))) ?_
  refine (broadcastTo_a1_ab_apply _ hb p c).trans ?_
  refine congrArg (fun z => max (Ideal.sqrt z) e) ?_
  exact rowSum_col_apply (mulf v v) acc h hφ hacc hc p 0

end Cert.Lib.RowNorm

end
-- ==== Proof.TileLayout.lean ====
/-
  Reshapes of a tile of 8 batch entries by 256 rows, read at an index given by coordinates.
  The kernel flattens a tile [8, 256, c] to [2048, c]: flat row 256 * b + s is row s of batch entry b.
  At the end the column [2048, 1] of row losses is folded back to [8, 256] so that each batch entry's
  256 losses can be summed.  Both reshapes keep the row-major position, which is all a shape cast preserves.
-/
import Idealize.ShloMosaic.Lib.ValueLayout

namespace Cert.TileLayout

open Idealize.ShloMosaic Idealize.ShloMosaic.ValueIdx

variable {α : Type}

/-- Row `s` of batch entry `b` of a tile, as a flat row of the tile. -/
def tileRow (b : Fin 8) (s : Fin 256) : Fin 2048 := ⟨256 * b.val + s.val, by omega⟩

/-- A tile [8, 256, c] flattened to [2048, c] reads, at flat row (b, s) and column d, the tile at (b, s, d). -/
theorem flatten_apply {c : ℕ} (x : (⟨3, ![8, 256, c]⟩ : Shape).Idx → α)
    (h : (⟨3, ![8, 256, c]⟩ : Shape).ShapeCasts ⟨2, ![2048, c]⟩) (b : Fin 8) (s : Fin 256) (d : Fin c) :
    shapeCast ⟨2, ![2048, c]⟩ x h (ix2 (tileRow b s) d) = x (ix3 b s d) :=
  shapeCast_apply x h _ _ (by
    rw [Shape.rowMajor_val_two, Shape.rowMajor_val_three]
    show (b.val * 256 + s.val) * c + d.val = (256 * b.val + s.val) * c + d.val
    rw [Nat.mul_comm b.val 256])

/-- A column [2048, 1] folded to [8, 256] reads, at (b, s), the column's entry in flat row (b, s). -/
theorem fold_apply (v : (⟨2, ![2048, 1]⟩ : Shape).Idx → α)
    (h : (⟨2, ![2048, 1]⟩ : Shape).ShapeCasts ⟨2, ![8, 256]⟩) (b : Fin 8) (s : Fin 256) :
    shapeCast ⟨2, ![8, 256]⟩ v h (ix2 b s) = v (ix2 (tileRow b s) (0 : Fin 1)) :=
  shapeCast_apply v h _ _ (by
    rw [Shape.rowMajor_val_two, Shape.rowMajor_val_two]
    show (256 * b.val + s.val) * 1 + 0 = b.val * 256 + s.val
    omega)

end Cert.TileLayout
-- ==== Proof.TileValue.lean ====
/-
  The body's arithmetic at one grid point, read index by index on the extended reals.
  A tile holds 8 batch entries by 256 rows of features (x0), their labels (x1), and all 64 prototypes (x2).  Flat row
  256 * b + s of the tile is row s of batch entry b.  For that row the body computes the cosine similarities with the
  prototypes, the one-hot mask of the label, the positive and negative sums, and the row's loss; the 256 losses of each
  batch entry are then added to the entry's running sum.  When the tile is the block (bi, si) of the whole arrays, these
  are the whole-array loss's terms: the entry's running sum grows by the loss of row block si of batch entry 8 * bi + b.
-/
import proofs.«109149_j87574383165821_1_alg».proof.Proof.Gen.KernelIdeal.Skeleton
import proofs.«109149_j87574383165821_1_alg».proof.Proof.Spec
import proofs.«109149_j87574383165821_1_alg».proof.Proof.RowOps
import proofs.«109149_j87574383165821_1_alg».proof.Proof.LibRowNorm
import proofs.«109149_j87574383165821_1_alg».proof.Proof.TileLayout
import proofs.«109149_j87574383165821_1_alg».proof.Proof.LibColumnLayout
import Idealize.ShloMosaic.Lib.Pipeline.Value

noncomputable section

namespace Cert.KernelIdeal.TileValue

open Idealize.ShloMosaic Idealize.ShloMosaic.ValueIdx Cert.KernelIdeal Cert.KernelIdeal.Gen Cert.TileLayout Cert.Loss
open Cert.Lib.ColumnLayout

/-- An equality test of two integer arrays, widened and converted to a float array, is the indicator of equality. -/
theorem onehot_apply {s : Shape} (a b : IVec s 32) (h : 1 < 32) (i : s.Idx) :
    (sitofp .f32 (extui 32 (cmpi .eq a b) h) : FVec Ideal s .f32) i = if a i = b i then 1 else 0 :=
  Cert.Loss.mask_signed (a i) (b i)

/-- The column counter of an [a, n] array at (p, c) is c. -/
theorem iota_col_apply {a n : ℕ} (h : (⟨2, ![a, n]⟩ : Shape).Iotas .tc 32 [1]) (p : Fin a) (c : Fin n) :
    iota .tc ⟨2, ![a, n]⟩ 32 [1] h (ix2 p c) = BitVec.ofNat 32 c.val := by
  show BitVec.ofNat 32 (0 * n + c.val) = _
  rw [Nat.zero_mul, Nat.zero_add]

section
variable (x0 : Vec Ideal S8x256x256 .f32) (x1 : Vec Ideal S8x256x1 .i32) (x2 : Vec Ideal S64x256 .f32)

/-- The similarity of tile row (b, s) with prototype t. -/
theorem sim_tile (b : Fin 8) (s : Fin 256) (t : Fin 64) :
    k0_pay3 (F := Ideal) x0 x2 (ix2 (tileRow b s) t)
      = ∑ d : Fin 256,
          Ideal.div (x0 (ix3 b s d)) (max (Ideal.sqrt (∑ k : Fin 256, x0 (ix3 b s k) * x0 (ix3 b s k))) (Ideal.ofBits .f32 0x2B8CBCCC#32))
          * Ideal.div (x2 (ix2 t d)) (max (Ideal.sqrt (∑ k : Fin 256, x2 (ix2 t k) * x2 (ix2 t k))) (Ideal.ofBits .f32 0x322BCC77#32)) := by
  unfold k0_pay3
  refine (RowOps.matmul_rows_apply _ _ (tileRow b s) t).trans (Finset.sum_congr rfl fun d _ => ?_)
  refine congrArg₂ (· * ·) ?_ ?_
  · refine (truncf_apply (ψ := .bf16) (φ := .f32) _ _ _).trans ?_
    refine (Cert.Lib.RowNorm.unitRows_apply (shapeCast S2048x256 x0 shapeCasts_S8x256x256_S2048x256) _ _ _ _ _ _ _ (tileRow b s) d).trans ?_
    simp only [flatten_apply]
    rfl
  · refine (truncf_apply (ψ := .bf16) (φ := .f32) _ _ _).trans ?_
    exact Cert.Lib.RowNorm.unitRows_apply x2 _ _ _ _ _ _ _ t d

/-- The mask of tile row (b, s) at prototype t. -/
theorem mask_tile (b : Fin 8) (s : Fin 256) (t : Fin 64) :
    k0_pay4 (F := Ideal) x1 (ix2 (tileRow b s) t) = if x1 (ix3 b s (0 : Fin 1)) = BitVec.ofNat 32 t.val then 1 else 0 := by
  unfold k0_pay4
  refine (onehot_apply _ _ _ _).trans ?_
  rw [broadcastTo_a1_ab_apply, flatten_apply, shapeCast_self, iota_col_apply]

/-- The positive sum of tile row (b, s). -/
theorem pos_tile (b : Fin 8) (s : Fin 256) (u : Fin 1) :
    k0_pay5 (F := Ideal) x0 x2 x1 (ix2 (tileRow b s) u)
      = ∑ t : Fin 64, Ideal.exp (k0_pay3 (F := Ideal) x0 x2 (ix2 (tileRow b s) t) * k0_pay4 (F := Ideal) x1 (ix2 (tileRow b s) t)
            * Ideal.ofBits .f32 0x40000000#32) * k0_pay4 (F := Ideal) x1 (ix2 (tileRow b s) t) := by
  unfold k0_pay5
  exact Cert.Lib.RowNorm.rowSum_col_apply _ _ _ _ _ _ (tileRow b s) u

end

/-- The store's value at batch entry b of the tile: the previous contents there plus the 256 row losses, each written
    from the similarities `v24`, the mask `v32` and the positive sums `v39`. -/
theorem partial_tile (v24 v32 : FVec Ideal S2048x64 .f32) (v39 : FVec Ideal S2048x1 .f32) (v56 : Vec Ideal S8x1 .f32)
    (b : Fin 8) (u : Fin 1) :
    k0_pay1 (F := Ideal) v24 v32 v39 v56 (ix2 b u)
      = v56 (ix2 b u) + ∑ s : Fin 256, (Ideal.ofBits .f32 0x00000000#32 - Ideal.log (Ideal.div (v39 (ix2 (tileRow b s) (0 : Fin 1)))
          (∑ t : Fin 64, Ideal.exp (v24 (ix2 (tileRow b s) t) * (Ideal.ofBits .f32 0x3F800000#32 - v32 (ix2 (tileRow b s) t))
              * Ideal.ofBits .f32 0x40000000#32) * (Ideal.ofBits .f32 0x3F800000#32 - v32 (ix2 (tileRow b s) t))))) := by
  unfold k0_pay1
  refine (addf_apply _ _ _).trans ?_
  refine congrArg₂ (· + ·) ?_ ?_
  · exact congrFun (shapeCast_self v56 _) _
  · refine (Cert.Lib.RowNorm.rowSum_col_apply _ _ _ _ _ _ b u).trans (Finset.sum_congr rfl fun s _ => ?_)
    refine (fold_apply _ _ b s).trans ?_
    refine congrArg (fun z => Ideal.ofBits .f32 0x00000000#32 - Ideal.log (Ideal.div (v39 (ix2 (tileRow b s) (0 : Fin 1))) z)) ?_
    exact Cert.Lib.RowNorm.rowSum_col_apply _ _ _ _ _ _ (tileRow b s) 0

/-- ONE GRID POINT'S STEP.  When the tile is block (bi, si) of the whole arrays X, Lb, Pr, the value stored at batch
    entry b is the previous contents plus the loss of row block si of batch entry 8 * bi + b. -/
theorem tile_step (X : SX.Idx → EReal) (Lb : SL.Idx → BitVec 32) (Pr : SP.Idx → EReal) (bi si : Fin 8)
    (x0 : Vec Ideal S8x256x256 .f32) (x1 : Vec Ideal S8x256x1 .i32) (x2 : Vec Ideal S64x256 .f32)
    (hx0 : ∀ (b : Fin 8) (s : Fin 256) (d : Fin 256), x0 (ix3 b s d) = X (ix3 (batchOf bi b) (rowOf si s) d))
    (hx1 : ∀ (b : Fin 8) (s : Fin 256) (u : Fin 1), x1 (ix3 b s u) = Lb (ix2 (batchOf bi b) (rowOf si s)))
    (hx2 : ∀ (q : Fin 64) (d : Fin 256), x2 (ix2 q d) = Pr (ix2 q d))
    (acc : Vec Ideal S8x1 .f32) (b : Fin 8) (u : Fin 1) :
    k0_pay1 (F := Ideal) (k0_pay3 x0 x2) (k0_pay4 x1) (k0_pay5 x0 x2 x1) acc (ix2 b u)
      = acc (ix2 b u) + blockLoss X Lb Pr (batchOf bi b) si := by
  rw [partial_tile]
  refine congrArg (acc (ix2 b u) + ·) (Finset.sum_congr rfl fun s _ => ?_)
  have hsim : ∀ t : Fin 64, k0_pay3 (F := Ideal) x0 x2 (ix2 (tileRow b s) t) = sim X Pr (batchOf bi b) (rowOf si s) t := fun t => by
    rw [sim_tile]
    simp only [hx0, hx2]
    rfl
  have hmask : ∀ t : Fin 64, k0_pay4 (F := Ideal) x1 (ix2 (tileRow b s) t) = mask Lb (batchOf bi b) (rowOf si s) t := fun t => by
    rw [mask_tile, hx1]
    rfl
  rw [pos_tile]
  simp only [hsim, hmask]
  rw [Ideal.ofBits_zero_f32, zero_sub]
  rfl

end Cert.KernelIdeal.TileValue

end
-- ==== Proof.TileBlocks.lean ====
/-
  The kernel's input blocks as elements of the argument arrays.

  The grid has 8 x 8 points; point t works on the tile of eight batch entries 8 * (t / 8) .. 8 * (t / 8) + 7 and on
  block t % 8 of their 2048 rows (256 rows). Element (b', s', d) of the feature block at point t is element
  (8 * (t / 8) + b', 256 * (t % 8) + s', d) of the feature array; the label block is read the same way off the label
  array (whose [64, 2048, 1] form the program makes by a reshape, which keeps the row-major position); the prototype
  block is the whole prototype array at every point.
-/
import proofs.«109149_j87574383165821_1_alg».proof.Proof.Gen.KernelIdeal.Frame
import proofs.«109149_j87574383165821_1_alg».proof.Proof.Spec
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.TileBlocks

open Idealize.ShloMosaic Idealize.ShloMosaic.TcCoe Idealize.SL.Sem
open Cert.KernelIdeal Cert.KernelIdeal.Gen Idealize.ShloMosaic.ValueIdx

variable {F : FTy → Type} [FloatOps F]
variable (m : (ℓ : Loc nD τ sig) → Buf (Elt F) ℓ)

/-- The tile's batch coordinate: point t works on batch entries 8 * (t / 8) + b'. -/
def tileB (t : Fin cfg0.N) : Fin 8 := ⟨t.val / 8, by have := lt_of_lt_of_eq t.isLt (show cfg0.N = 64 from N_0); omega⟩

/-- The tile's row-block coordinate: point t works on rows 256 * (t % 8) + s'. -/
def tileS (t : Fin cfg0.N) : Fin 8 := ⟨t.val % 8, by omega⟩

/-- The block indices of window 0 over the grid. -/
theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)

/-- The feature block at point t, element by element. -/
theorem iblk0_apply (c : Dev nD) (t : Fin cfg0.N) (b' : Fin 8) (s' : Fin 256) (d : Fin 256) :
    (iblk m c 0 t : Vec F S8x256x256 .f32) (ix3 b' s' d)
      = m ((c : Thread nD τ).loc main_arg0) (ix3 (Cert.Loss.batchOf (tileB t) b') (Cert.Loss.rowOf (tileS t) s') d) := by
  have hi := index0 t
  unfold iblk
  rw [View.read_apply]
  show V m c main_arg0 _ = _
  rw [V_main_arg0]
  congr 1
  funext a
  apply Fin.ext
  match a with
  | ⟨0, _⟩ => show win0_0.index t 0 * 8 + 1 * b'.val = 8 * (t.val / 8) + b'.val; rw [hi.1]; omega
  | ⟨1, _⟩ => show win0_0.index t 1 * 256 + 1 * s'.val = 256 * (t.val % 8) + s'.val; rw [hi.2.1]; omega
  | ⟨2, _⟩ => show win0_0.index t 2 * 256 + 1 * d.val = d.val; rw [hi.2.2]; omega

/-- The block indices of window 1 over the grid. -/
theorem index1 : ∀ t : Fin cfg0.N, win0_1.index t 0 = t.val / 8 ∧ win0_1.index t 1 = t.val % 8 ∧ win0_1.index t 2 = 0 :=
  (by decide +kernel : ∀ t : Fin grid0.N, win0_1.index t 0 = t.val / 8 ∧ win0_1.index t 1 = t.val % 8 ∧ win0_1.index t 2 = 0)

/-- The block indices of window 2 over the grid. -/
theorem index2 : ∀ t : Fin cfg0.N, win0_2.index t 0 = 0 ∧ win0_2.index t 1 = 0 :=
  (by decide +kernel : ∀ t : Fin grid0.N, win0_2.index t 0 = 0 ∧ win0_2.index t 1 = 0)

/-- The label array in its [64, 2048, 1] form, as the region finds it: the reshape of the label argument. -/
theorem V_main_v0 (c : Dev nD) :
    (V m c main_v0 : S64x2048x1.Idx → BitVec 32)
      = shapeCast S64x2048x1 (m ((c : Thread nD τ).loc main_arg1)) shapeCasts_S64x2048_S64x2048x1 := by
  dsimp only [Gen.V, Gen.V0]
  simp only [List.flatten_cons, List.flatten_nil, List.append_nil]
  show StableHlo.after hostOps0 (fun b => m (c, b)) (Proc.devRef .tc main_v0) = _
  after_results
  rfl

/-- The label block at point t, element by element. -/
theorem iblk1_apply (c : Dev nD) (t : Fin cfg0.N) (b' : Fin 8) (s' : Fin 256) (u : Fin 1) :
    (iblk m c 1 t : Vec F S8x256x1 .i32) (ix3 b' s' u)
      = m ((c : Thread nD τ).loc main_arg1) (ix2 (Cert.Loss.batchOf (tileB t) b') (Cert.Loss.rowOf (tileS t) s')) := by
  have hi := index1 t
  have hu : u.val = 0 := by omega
  unfold iblk
  rw [View.read_apply]
  show (V m c main_v0 : S64x2048x1.Idx → BitVec 32) _ = _
  rw [V_main_v0]
  refine shapeCast_apply _ _ _ _ ?_
  have e2 := Shape.rowMajor_val_two (d := ![64, 2048]) (ix2 (Cert.Loss.batchOf (tileB t) b') (Cert.Loss.rowOf (tileS t) s'))
  have e3 := Shape.rowMajor_val_three (d := ![64, 2048, 1]) (((cfg0.win 1).blk t).view.emb (ix3 b' s' u))
  refine e2.trans (Eq.trans ?_ e3.symm)
  show (8 * (t.val / 8) + b'.val) * 2048 + (256 * (t.val % 8) + s'.val)
    = ((win0_1.index t 0 * 8 + 1 * b'.val) * 2048 + (win0_1.index t 1 * 256 + 1 * s'.val)) * 1 + (win0_1.index t 2 * 1 + 1 * u.val)
  rw [hi.1, hi.2.1, hi.2.2, hu]
  omega

/-- The prototype block at every point is the prototype array. -/
theorem iblk2_apply (c : Dev nD) (t : Fin cfg0.N) (q : Fin 64) (d : Fin 256) :
    (iblk m c 2 t : Vec F S64x256 .f32) (ix2 q d) = m ((c : Thread nD τ).loc main_arg2) (ix2 q d) := by
  have hi := index2 t
  unfold iblk
  rw [View.read_apply]
  show V m c main_arg2 _ = _
  rw [V_main_arg2]
  congr 1
  funext a
  apply Fin.ext
  match a with
  | ⟨0, _⟩ => show win0_2.index t 0 * 64 + 1 * q.val = q.val; rw [hi.1]; omega
  | ⟨1, _⟩ => show win0_2.index t 1 * 256 + 1 * d.val = d.val; rw [hi.2]; omega

end Cert.KernelIdeal.TileBlocks

end
-- ==== Proof.PointSums.lean ====
/-
  What the output block's buffer holds after each grid point: a running sum.
  The grid runs over batch tiles (8 of them) and, inside a tile, over the 8 row blocks.  After row block k of batch tile
  bi the buffer's entry for batch entry b holds the losses of row blocks 0 .. k of batch entry 8 * bi + b, added in
  that order: the first row block starts from zero, every later one adds its block to what the point before left.
  By induction on the point.
-/
import proofs.«109149_j87574383165821_1_alg».proof.Proof.CasePieces
import proofs.«109149_j87574383165821_1_alg».proof.Proof.TileValue
import proofs.«109149_j87574383165821_1_alg».proof.Proof.TileBlocks

noncomputable section

open Idealize.ShloMosaic Idealize.ShloMosaic.TcCoe Idealize.SL.Sem

namespace Cert.KernelIdeal.PointSums

open Cert.KernelIdeal Cert.KernelIdeal.Gen Cert.KernelIdeal.TileBlocks Cert.Loss Idealize.ShloMosaic.ValueIdx

variable (m : (ℓ : Loc nD τ sig) → Buf (Elt Ideal) ℓ)

/-- The three argument arrays on core c. -/
abbrev feat (c : Dev nD) : SX.Idx → EReal := m ((c : Thread nD τ).loc main_arg0)
abbrev labs (c : Dev nD) : SL.Idx → BitVec 32 := m ((c : Thread nD τ).loc main_arg1)
abbrev prot (c : Dev nD) : SP.Idx → EReal := m ((c : Thread nD τ).loc main_arg2)

/-- One point's step, at the point's own blocks. -/
theorem step_at (c : Dev nD) (t : Fin cfg0.N) (acc : Vec Ideal S8x1 .f32) (b : Fin 8) (u : Fin 1) :
    k0_pay1 (F := Ideal) (k0_pay3 (iblk m c 0 t) (iblk m c 2 t)) (k0_pay4 (iblk m c 1 t)) (k0_pay5 (iblk m c 0 t) (iblk m c 2 t) (iblk m c 1 t)) acc (ix2 b u)
      = acc (ix2 b u) + blockLoss (feat m c) (labs m c) (prot m c) (batchOf (tileB t) b) (tileS t) :=
  TileValue.tile_step (feat m c) (labs m c) (prot m c) (tileB t) (tileS t) (iblk m c 0 t) (iblk m c 1 t) (iblk m c 2 t)
    (fun b s d => iblk0_apply m c t b s d) (fun b s u => iblk1_apply m c t b s u) (fun q d => iblk2_apply m c t q d) acc b u

/-- THE RUNNING SUM after point n. -/
theorem outsAt_eq (c : Dev nD) : ∀ (n : ℕ) (h : n < cfg0.N) (b : Fin 8) (u : Fin 1),
    outsAt0 m c n h (ix2 b u)
      = ∑ j ∈ Finset.range (n % 8 + 1), blockLossN (feat m c) (labs m c) (prot m c) (batchOf (tileB ⟨n, h⟩) b) j
  | n, h, b, u => by
    have hN : cfg0.N = 64 := N_0
    by_cases h0 : n % 8 = 0
    · rw [outsAt0_A m c ⟨n, h⟩ h0, CaseValue.out_A, step_at]
      have hS : tileS ⟨n, h⟩ = ⟨0, by omega⟩ := Fin.ext h0
      rw [h0, Finset.sum_range_one, hS]
      show Ideal.ofBits .f32 0x00000000#32 + _ = _
      rw [Ideal.ofBits_zero_f32, zero_add]
      unfold blockLossN
      rw [dif_pos (by omega : 0 < 8)]
    · have hn : n - 1 < cfg0.N := by omega
      have ih := outsAt_eq c (n - 1) hn b u
      rw [outsAt0_B m c ⟨n, h⟩ h0, CaseValue.out_B, step_at]
      have hB : tileB ⟨n - 1, hn⟩ = tileB ⟨n, h⟩ := Fin.ext (by show (n - 1) / 8 = n / 8; omega)
      have hk : (n - 1) % 8 + 1 = n % 8 := by omega
      show outsAt0 m c (n - 1) _ (ix2 b u) + _ = _
      rw [ih, hB, hk, Finset.sum_range_succ]
      refine congrArg (_ + ·) ?_
      unfold blockLossN
      rw [dif_pos (by omega : n % 8 < 8)]
      rfl
  termination_by n => n
  decreasing_by omega

/-- At the last row block of a batch tile the buffer holds the batch entries' whole losses. -/
theorem outsAt_last (c : Dev nD) (t : Fin cfg0.N) (h7 : t.val % 8 = 7) (b : Fin 8) (u : Fin 1) :
    outsAt0 m c t.val t.isLt (ix2 b u) = batchLoss (feat m c) (labs m c) (prot m c) (batchOf (tileB t) b) := by
  rw [outsAt_eq m c t.val t.isLt b u, h7]
  exact sum_range_blockLossN _ _ _ _

end Cert.KernelIdeal.PointSums

end
-- ==== Proof.KernelArray.lean ====
/-
  The kernel program's arrays after its run.

  The kernel's output array has one entry per batch entry. The grid point t works on the tile of eight batch entries
  8 * (t / 8) + b' and adds its block of 256 rows into the tile's eight entries; the tile is written back to the array
  after its eighth block, at the points t with t % 8 = 7. Given that what is written back there is the loss of each of
  the tile's batch entries (the hypothesis hout), the output array ends holding every batch entry's loss: batch entry r
  is covered by the write-back at the point 8 * (r / 8) + 7. The program then adds the 64 entries up from zero, and the
  sum of the batch entries' losses is the whole loss.
-/
import proofs.«109149_j87574383165821_1_alg».proof.Proof.TileBlocks
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

noncomputable section

namespace Cert.KernelIdeal.ArrayValue

open Idealize.ShloMosaic Idealize.ShloMosaic.TcCoe Idealize.SL.Sem
open Idealize.ShloMosaic.Pipeline (Dat)
open Cert.KernelIdeal Cert.KernelIdeal.Gen Cert.KernelIdeal.TileBlocks Idealize.ShloMosaic.ValueIdx

variable (m : (ℓ : Loc nD τ sig) → Buf (Elt Ideal) ℓ) (ρ : Dev nD → PrngReg)

/-- The hypothesis on the body: at a point that writes the output tile back, entry b' of what it leaves is the loss of
    batch entry 8 * (t / 8) + b'. -/
abbrev HOut : Prop :=
  ∀ (c : Dev nD) (t : Fin cfg0.N), t.val % 8 = 7 → ∀ (b' : Fin 8) (u : Fin 1),
    outsAt0 m c t.val t.isLt (ix2 b' u)
      = Cert.Loss.batchLoss (m ((c : Thread nD τ).loc main_arg0)) (m ((c : Thread nD τ).loc main_arg1))
          (m ((c : Thread nD τ).loc main_arg2)) (Cert.Loss.batchOf (tileB t) b')

/-- The output array's contents after the run: every batch entry's loss. -/
abbrev result (c : Dev nD) : Buf (Elt Ideal) ((c : Thread nD τ).loc main_v1) :=
  fun i => Cert.Loss.batchLoss (m ((c : Thread nD τ).loc main_arg0)) (m ((c : Thread nD τ).loc main_arg1))
    (m ((c : Thread nD τ).loc main_arg2)) (i 0)

/-- The block indices and extents of the output window over the grid. -/
theorem index3 : ∀ t : Fin cfg0.N, win0_3.index t 0 = t.val / 8 ∧ win0_3.index t 1 = 0
    ∧ win0_3.xsize (grid0.coords t) 0 = 8 ∧ win0_3.xsize (grid0.coords t) 1 = 1 :=
  (by decide +kernel : ∀ t : Fin grid0.N, win0_3.index t 0 = t.val / 8 ∧ win0_3.index t 1 = 0
    ∧ win0_3.xsize (grid0.coords t) 0 = 8 ∧ win0_3.xsize (grid0.coords t) 1 = 1)

/-- What a write-back writes is its block of the batch entries' losses. -/
theorem flushed_eq (hout : HOut m) (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hi := index3 t
  show (cfg0.win 3).cut (grid0.coords t) ((dats m 0 c).after 3 t) = _
  rw [after0_3]
  funext y
  rw [View.read_apply]
  have ey : (y : S8x1.Idx) = ix2 (y 0) (y 1) := eq_ix2 (n0 := 8) (n1 := 1) y
  have key := hout c t h7 (y 0) (y 1)
  show outsAt0 m c t.val t.isLt y = Cert.Loss.batchLoss _ _ _ ((((cfg0.win 3).blk t).view.emb y) 0)
  refine ((congrArg (outsAt0 m c t.val t.isLt) ey).trans key).trans ?_
  congr 1
  apply Fin.ext
  show 8 * (t.val / 8) + (y 0).val = win0_3.index t 0 * 8 + 1 * (y 0).val
  rw [hi.1]
  omega

/-- So the output array ends holding every batch entry's loss: entry r is written by the point 8 * (r / 8) + 7. -/
theorem final_out (hout : HOut m) (c : Dev nD) : (dats m 0 c).arrAt 3 cfg0.N = result m c :=
  (dats m 0 c).arrAt_eq_of_cover 3 (result m c) (flushed_eq m hout c) fun i => by
    have hN : cfg0.N = 64 := N_0
    have h0 : (i 0 : Nat) < 64 := (i 0).isLt
    have h1 : (i 1 : Nat) < 1 := (i 1).isLt
    let t : Fin cfg0.N := ⟨8 * ((i 0 : Nat) / 8) + 7, by omega⟩
    have hi := index3 t
    have ht : t.val = 8 * ((i 0 : Nat) / 8) + 7 := rfl
    refine ⟨t, (flush0_3 t).mpr (by omega), ?_⟩
    show i ∈ ((View.whole main_v1).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + win0_3.xsize (grid0.coords t) 0
      rw [hi.1, hi.2.2.1, show win0_3.size 0 = 8 from rfl]
      omega
    | ⟨1, _⟩ =>
      show win0_3.index t 1 * win0_3.size 1 ≤ (i 1 : Nat) ∧ (i 1 : Nat) < win0_3.index t 1 * win0_3.size 1 + win0_3.xsize (grid0.coords t) 1
      rw [hi.2.1, hi.2.2.2]
      omega

/-- The program's tail: the sum, from zero, of the output array's 64 entries, which is the whole loss. -/
theorem tail_eq (hout : HOut m) (c : Dev nD) :
    Pipeline.afterTail₀ cfgs (dats m) 0 (V0 m) [hostOps1] c main_v2
      = fun _ => Cert.Loss.total (m ((c : Thread nD τ).loc main_arg0)) (m ((c : Thread nD τ).loc main_arg1))
          (m ((c : Thread nD τ).loc main_arg2)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = result m c :=
    (Pipeline.withArrays_arr spec0 launch0.win.arr_inj c _ _ 3).trans (final_out m hout c)
  rw [hw]
  funext i
  simp only [Host.reduceAdd, Ideal.hostReduceAdd_def]
  rw [Ideal.hostReduceAdd_total reducesTo_S64x1_S_d0_1 (fun b => b.elim0), constant_apply, Ideal.ofBits_zero_f32, zero_add,
    Cert.Loss.total_batches, sum_idx2]
  refine Finset.sum_congr rfl fun b _ => ?_
  rw [Fin.sum_univ_one]
  rfl

/-- The run, read: the result at the whole loss, the three arguments unchanged. -/
theorem run (hout : HOut m) : θ_run defs (onTc (τ := τ) (main (F := Ideal))) ⟨m, fun _ => 0, ρ⟩ (fun r => ∀ c : Dev nD,
      r.2.mem ((c.tc : Thread nD τ).loc main_v2)
        = (fun _ => Cert.Loss.total (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (Pipeline.mem_restRefs_of main_v2 (by decide) (by decide))).trans (tail_eq m hout c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.ArrayValue

end
-- ==== Proof.lean ====
/-
  The certificate of a contrastive loss over label prototypes.

  Both programs normalise every feature row and every prototype by its floored Euclidean norm, take the cosine
  similarities of each row with the 64 prototypes, mask them with the one-hot vector of the row's label, and form
  -log(pos / neg) per row, pos and neg being the sums of exp(2 * sim * mask) * mask over the label's prototype and over
  the others; the result is the sum of these row losses over 64 batch entries of 2048 rows.

  The kernel walks the rows in tiles of 8 batch entries by 256 rows: each grid point adds, for each of its 8 batch
  entries, the 256 row losses of the tile into a running [8, 1] block that starts at zero on a batch tile's first row
  block and is written to the [64, 1] result after the last one; the host then sums the 64 entries.  The reference
  sums all 64 * 2048 row losses at once.  Row by row the two compute the same extended real (a matrix product into a
  zero accumulator against a contraction, a lane sum against a host sum, the mask as an equality test converted signed
  or unsigned, 0 - x against -x), and the two groupings of the final sum agree because addition on the extended reals
  is commutative and associative; no finiteness of the inputs is used.
-/
import proofs.«109149_j87574383165821_1_alg».proof.Defs
import proofs.«109149_j87574383165821_1_alg».proof.Proof.Gen.Kernel
import proofs.«109149_j87574383165821_1_alg».proof.Proof.Gen.Kernel.Skeleton
import proofs.«109149_j87574383165821_1_alg».proof.Proof.Gen.Kernel.Launch
import proofs.«109149_j87574383165821_1_alg».proof.Proof.Gen.Kernel.Points
import proofs.«109149_j87574383165821_1_alg».proof.Proof.Gen.Kernel.Frame
import proofs.«109149_j87574383165821_1_alg».proof.Proof.Gen.KernelIdeal
import proofs.«109149_j87574383165821_1_alg».proof.Proof.Gen.KernelIdeal.Skeleton
import proofs.«109149_j87574383165821_1_alg».proof.Proof.Gen.KernelIdeal.Launch
import proofs.«109149_j87574383165821_1_alg».proof.Proof.Gen.KernelIdeal.Points
import proofs.«109149_j87574383165821_1_alg».proof.Proof.Gen.KernelIdeal.Frame
import proofs.«109149_j87574383165821_1_alg».proof.Proof.Gen.ReferenceIdeal
import proofs.«109149_j87574383165821_1_alg».proof.Proof.Gen.Pre_finite_inputs
import proofs.«109149_j87574383165821_1_alg».proof.Proof.Gen.ReferenceIdeal.Run
import proofs.«109149_j87574383165821_1_alg».proof.Proof.Gen.ReferenceIdeal.Read
import proofs.«109149_j87574383165821_1_alg».proof.Proof.RefLoss
import proofs.«109149_j87574383165821_1_alg».proof.Proof.PointSums
import proofs.«109149_j87574383165821_1_alg».proof.Proof.KernelArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the whole loss of the argument arrays in their result. -/
theorem algebraic : Cert.algebraic_KernelIdeal_ReferenceIdeal := by
  intro m ρ m' ρ' _ hagree
  refine ⟨_, Cert.KernelIdeal.ArrayValue.run m ρ (fun c t h7 b u => Cert.KernelIdeal.PointSums.outsAt_last m c t h7 b u), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_total, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
